-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel

variable [Facts]

def fn {F : FTy → Type} [FloatOps F] (main_arg0 : FVec F S8x64x128x128 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  main_v3
-- ==== Kernel.lean ====
abbrev S8x64x128x128 : Shape := ⟨4, ![8, 64, 128, 128]⟩
abbrev S8x128x128x128 : Shape := ⟨4, ![8, 128, 128, 128]⟩
abbrev S1x64x64x128 : Shape := ⟨4, ![1, 64, 64, 128]⟩
abbrev S1x128x64x128 : Shape := ⟨4, ![1, 128, 64, 128]⟩
abbrev S64x64x128 : Shape := ⟨3, ![64, 64, 128]⟩
abbrev S62x64x128 : Shape := ⟨3, ![62, 64, 128]⟩
abbrev S2x64x128 : Shape := ⟨3, ![2, 64, 128]⟩
abbrev S63x64x128 : Shape := ⟨3, ![63, 64, 128]⟩
abbrev S1x64x128 : Shape := ⟨3, ![1, 64, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x64x128x128, .f32⟩
  | .hbm, ⟨1, _⟩ => ⟨S8x128x128x128, .f32⟩
  | .local _ .vmem, ⟨0, _⟩ => ⟨S1x64x64x128, .f32⟩
  | .local _ .vmem, ⟨1, _⟩ => ⟨S1x64x64x128, .f32⟩
  | .local _ .vmem, ⟨2, _⟩ => ⟨S1x128x64x128, .f32⟩
  | .local _ .vmem, ⟨3, _⟩ => ⟨S1x128x64x128, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  slices_S64x64x128_o2_0_0_S62x64x128 : S64x64x128.Slices ![2, 0, 0] S62x64x128
  slices_S64x64x128_o0_0_0_S2x64x128 : S64x64x128.Slices ![0, 0, 0] S2x64x128
  concatenates_S62x64x128_S2x64x128_S64x64x128_d0 : Shape.Concatenates [S62x64x128, S2x64x128] S64x64x128 0
  slices_S64x64x128_o1_0_0_S63x64x128 : S64x64x128.Slices ![1, 0, 0] S63x64x128
  slices_S64x64x128_o0_0_0_S1x64x128 : S64x64x128.Slices ![0, 0, 0] S1x64x128
  concatenates_S63x64x128_S1x64x128_S64x64x128_d0 : Shape.Concatenates [S63x64x128, S1x64x128] S64x64x128 0
  slices_S64x64x128_o63_0_0_S1x64x128 : S64x64x128.Slices ![63, 0, 0] S1x64x128
  slices_S64x64x128_o0_0_0_S63x64x128 : S64x64x128.Slices ![0, 0, 0] S63x64x128
  concatenates_S1x64x128_S63x64x128_S64x64x128_d0 : Shape.Concatenates [S1x64x128, S63x64x128] S64x64x128 0
  inb_S1x128x64x128_S1x64x64x128_0_0_0_0 : ∀ a, (![0, 0, 0, 0] : Fin 4 → Nat) a + S1x64x64x128.size a ≤ S1x128x64x128.size a
  shapeCasts_S64x64x128_S1x64x64x128 : S64x64x128.ShapeCasts S1x64x64x128
  inb_S1x128x64x128_S1x64x64x128_0_64_0_0 : ∀ a, (![0, 64, 0, 0] : Fin 4 → Nat) a + S1x64x64x128.size a ≤ S1x128x64x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S8x64x128x128.size a
  hwx0_0 : ∀ i : grid0.Coords, EltTy.bits .f32 = 32 ∨ (Rect.block (s := S8x64x128x128) S1x64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x128.size a ≤ S8x128x128x128.size a
  hwx0_1 : ∀ i : grid0.Coords, EltTy.bits .f32 = 32 ∨ (Rect.block (s := S8x128x128x128) S1x128x64x128.size (cc0_transform_1 i) (hinb0_1 i)).WholeWords (EltTy.packing .f32)

variable [Facts₀]

abbrev win0_0 : Pipeline.Window sig grid0 :=
  Pipeline.Window.ofSpec (Memref.whole main_arg0) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x128x128 : Shape := ⟨4, ![8, 64, 128, 128]⟩
abbrev S4 : Shape := ⟨1, ![4]⟩
abbrev S8x62x128x128 : Shape := ⟨4, ![8, 62, 128, 128]⟩
abbrev S8x2x128x128 : Shape := ⟨4, ![8, 2, 128, 128]⟩
abbrev S8x63x128x128 : Shape := ⟨4, ![8, 63, 128, 128]⟩
abbrev S8x1x128x128 : Shape := ⟨4, ![8, 1, 128, 128]⟩
abbrev S8x0x128x128 : Shape := ⟨4, ![8, 0, 128, 128]⟩
abbrev S1 : Shape := ⟨1, ![1]⟩
abbrev S_ : Shape := ⟨0, ![]⟩
abbrev S8x128x128x128 : Shape := ⟨4, ![8, 128, 128, 128]⟩

abbrev nBuf : Space → Nat
  | .hbm => 60
  | .vmem => 0
  | .smem => 0
  | _ => 0

abbrev bufTy : (tb : Table) → Fin (tcTables nBuf tb) → BufTy
  | .hbm, ⟨0, _⟩ => ⟨S8x64x128x128, .f32⟩
  | .hbm, ⟨1, _⟩ => ⟨S4, .f32⟩
  | .hbm, ⟨2, _⟩ => ⟨S4, .f32⟩
  | .hbm, ⟨3, _⟩ => ⟨S8x62x128x128, .f32⟩
  | .hbm, ⟨4, _⟩ => ⟨S8x2x128x128, .f32⟩
  | .hbm, ⟨5, _⟩ => ⟨S8x64x128x128, .f32⟩
  | .hbm, ⟨6, _⟩ => ⟨S8x63x128x128, .f32⟩
  | .hbm, ⟨7, _⟩ => ⟨S8x1x128x128, .f32⟩
  | .hbm, ⟨8, _⟩ => ⟨S8x64x128x128, .f32⟩
  | .hbm, ⟨9, _⟩ => ⟨S8x64x128x128, .f32⟩
  | .hbm, ⟨10, _⟩ => ⟨S8x0x128x128, .f32⟩
  | .hbm, ⟨11, _⟩ => ⟨S8x64x128x128, .f32⟩
  | .hbm, ⟨12, _⟩ => ⟨S8x1x128x128, .f32⟩
  | .hbm, ⟨13, _⟩ => ⟨S8x63x128x128, .f32⟩
  | .hbm, ⟨14, _⟩ => ⟨S8x64x128x128, .f32⟩
  | .hbm, ⟨15, _⟩ => ⟨S1, .f32⟩
  | .hbm, ⟨16, _⟩ => ⟨S_, .f32⟩
  | .hbm, ⟨17, _⟩ => ⟨S8x64x128x128, .f32⟩
  | .hbm, ⟨18, _⟩ => ⟨S8x64x128x128, .f32⟩
  | .hbm, ⟨19, _⟩ => ⟨S_, .f32⟩
  | .hbm, ⟨20, _⟩ => ⟨S8x64x128x128, .f32⟩
  | .hbm, ⟨21, _⟩ => ⟨S8x64x128x128, .f32⟩
  | .hbm, ⟨22, _⟩ => ⟨S1, .f32⟩
  | .hbm, ⟨23, _⟩ => ⟨S_, .f32⟩
  | .hbm, ⟨24, _⟩ => ⟨S8x64x128x128, .f32⟩
  | .hbm, ⟨25, _⟩ => ⟨S8x64x128x128, .f32⟩
  | .hbm, ⟨26, _⟩ => ⟨S8x64x128x128, .f32⟩
  | .hbm, ⟨27, _⟩ => ⟨S1, .f32⟩
  | .hbm, ⟨28, _⟩ => ⟨S_, .f32⟩
  | .hbm, ⟨29, _⟩ => ⟨S8x64x128x128, .f32⟩
  | .hbm, ⟨30, _⟩ => ⟨S8x64x128x128, .f32⟩
  | .hbm, ⟨31, _⟩ => ⟨S8x64x128x128, .f32⟩
  | .hbm, ⟨32, _⟩ => ⟨S1, .f32⟩
  | .hbm, ⟨33, _⟩ => ⟨S_, .f32⟩
  | .hbm, ⟨34, _⟩ => ⟨S8x64x128x128, .f32⟩
  | .hbm, ⟨35, _⟩ => ⟨S8x64x128x128, .f32⟩
  | .hbm, ⟨36, _⟩ => ⟨S8x64x128x128, .f32⟩
  | .hbm, ⟨37, _⟩ => ⟨S1, .f32⟩
  | .hbm, ⟨38, _⟩ => ⟨S_, .f32⟩
  | .hbm, ⟨39, _⟩ => ⟨S8x64x128x128, .f32⟩
  | .hbm, ⟨40, _⟩ => ⟨S8x64x128x128, .f32⟩
  | .hbm, ⟨41, _⟩ => ⟨S_, .f32⟩
  | .hbm, ⟨42, _⟩ => ⟨S8x64x128x128, .f32⟩
  | .hbm, ⟨43, _⟩ => ⟨S8x64x128x128, .f32⟩
  | .hbm, ⟨44, _⟩ => ⟨S1, .f32⟩
  | .hbm, ⟨45, _⟩ => ⟨S_, .f32⟩
  | .hbm, ⟨46, _⟩ => ⟨S8x64x128x128, .f32⟩
  | .hbm, ⟨47, _⟩ => ⟨S8x64x128x128, .f32⟩
  | .hbm, ⟨48, _⟩ => ⟨S8x64x128x128, .f32⟩
  | .hbm, ⟨49, _⟩ => ⟨S1, .f32⟩
  | .hbm, ⟨50, _⟩ => ⟨S_, .f32⟩
  | .hbm, ⟨51, _⟩ => ⟨S8x64x128x128, .f32⟩
  | .hbm, ⟨52, _⟩ => ⟨S8x64x128x128, .f32⟩
  | .hbm, ⟨53, _⟩ => ⟨S8x64x128x128, .f32⟩
  | .hbm, ⟨54, _⟩ => ⟨S1, .f32⟩
  | .hbm, ⟨55, _⟩ => ⟨S_, .f32⟩
  | .hbm, ⟨56, _⟩ => ⟨S8x64x128x128, .f32⟩
  | .hbm, ⟨57, _⟩ => ⟨S8x64x128x128, .f32⟩
  | .hbm, ⟨58, _⟩ => ⟨S8x64x128x128, .f32⟩
  | .hbm, ⟨59, _⟩ => ⟨S8x128x128x128, .f32⟩
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_v1 : Ref sig .tc := ⟨.hbm, 8, rfl⟩
abbrev main_call2_v0 : Ref sig .tc := ⟨.hbm, 9, rfl⟩
abbrev main_call2_v1 : Ref sig .tc := ⟨.hbm, 10, rfl⟩
abbrev main_v2 : Ref sig .tc := ⟨.hbm, 11, rfl⟩
abbrev main_call3_v0 : Ref sig .tc := ⟨.hbm, 12, rfl⟩
abbrev main_call3_v1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]

class Facts₀ : Prop where
  slices_S8x64x128x128_S8x62x128x128_0_2_0_0 : S8x64x128x128.Slices ![0, 2, 0, 0] S8x62x128x128
  slices_S8x64x128x128_S8x2x128x128_0_0_0_0 : S8x64x128x128.Slices ![0, 0, 0, 0] S8x2x128x128
  concatenates_S8x62x128x128_S8x2x128x128_S8x64x128x128_d1 : Shape.Concatenates [S8x62x128x128, S8x2x128x128] S8x64x128x128 1
  slices_S8x64x128x128_S8x63x128x128_0_1_0_0 : S8x64x128x128.Slices ![0, 1, 0, 0] S8x63x128x128
  slices_S8x64x128x128_S8x1x128x128_0_0_0_0 : S8x64x128x128.Slices ![0, 0, 0, 0] S8x1x128x128
  concatenates_S8x63x128x128_S8x1x128x128_S8x64x128x128_d1 : Shape.Concatenates [S8x63x128x128, S8x1x128x128] S8x64x128x128 1
  slices_S8x64x128x128_S8x64x128x128_0_0_0_0 : S8x64x128x128.Slices ![0, 0, 0, 0] S8x64x128x128
  slices_S8x64x128x128_S8x0x128x128_0_0_0_0 : S8x64x128x128.Slices ![0, 0, 0, 0] S8x0x128x128
  concatenates_S8x64x128x128_S8x0x128x128_S8x64x128x128_d1 : Shape.Concatenates [S8x64x128x128, S8x0x128x128] S8x64x128x128 1
  slices_S8x64x128x128_S8x1x128x128_0_63_0_0 : S8x64x128x128.Slices ![0, 63, 0, 0] S8x1x128x128
  slices_S8x64x128x128_S8x63x128x128_0_0_0_0 : S8x64x128x128.Slices ![0, 0, 0, 0] S8x63x128x128
  concatenates_S8x1x128x128_S8x63x128x128_S8x64x128x128_d1 : Shape.Concatenates [S8x1x128x128, S8x63x128x128] S8x64x128x128 1
  slices_S4_S1_0 : S4.Slices ![0] S1
  shapeCasts_S1_S_ : S1.ShapeCasts S_
  bcast_S_S8x64x128x128 : S_.BroadcastsInDim S8x64x128x128 (![] : Fin 0 → Fin S8x64x128x128.rank)
  slices_S4_S1_1 : S4.Slices ![1] S1
  slices_S4_S1_2 : S4.Slices ![2] S1
  slices_S4_S1_3 : S4.Slices ![3] S1
  concatenates_S8x64x128x128_S8x64x128x128_S8x128x128x128_d1 : Shape.Concatenates [S8x64x128x128, S8x64x128x128] S8x128x128x128 1

variable [Facts₀]

class Facts : Prop extends Facts₀ where

variable [Facts]
-- ==== Proof.Swt.lean ====
/-
  The level-1 stationary wavelet transform along the channel axis, as one function of the input array.

  The input has 64 channels; the output has 128: output channel q < 64 is the low-pass filter (approximation
  coefficients) at channel q, output channel 64 + q the high-pass filter (detail coefficients) at channel q.
  Each filter has four taps, and reads the channels q + 2, q + 1, q and q - 1, taken round the cycle of 64
  channels (periodic extension). A filter's value is the running sum
      (((0 + k0 * x[q+2]) + k1 * x[q+1]) + k2 * x[q]) + k3 * x[q-1]
  added in exactly this order, so that it is one term at any reading of the float operations: no law of
  arithmetic is used anywhere below, and none is needed. The batch and the two spatial coordinates are carried along
  unchanged, so the same definition serves a whole array and one block of it.
-/
import Idealize.ShloMosaic.PureOps
import Idealize.ShloMosaic.Lib.ValueIdx

noncomputable section

namespace Cert.Swt

open Idealize.ShloMosaic Idealize.ShloMosaic.ValueIdx

variable {F : FTy → Type} [FloatOps F]

/-- Channel `p` moved `s` places forward round the cycle of 64 channels. -/
def rot (p : Fin 64) (s : Nat) : Fin 64 := ⟨(p.val + s) % 64, Nat.mod_lt _ (by decide)⟩

theorem rot_val (p : Fin 64) (s : Nat) : (rot p s).val = (p.val + s) % 64 := rfl

/-- Moving by nothing is the identity. -/
theorem rot_zero (p : Fin 64) : rot p 0 = p := Fin.ext (by show (p.val + 0) % 64 = p.val; have := p.isLt; omega)

/-- A four-tap filter with coefficient words `k0 … k3` on four samples: the running sum from zero, in order. -/
def tap4 (k0 k1 k2 k3 : BitVec 32) (a b c d : F .f32) : F .f32 :=
  FloatOps.addf (FloatOps.addf (FloatOps.addf (FloatOps.addf (FloatOps.ofBits .f32 0x00000000#32)
    (FloatOps.mulf (FloatOps.ofBits .f32 k0) a)) (FloatOps.mulf (FloatOps.ofBits .f32 k1) b))
    (FloatOps.mulf (FloatOps.ofBits .f32 k2) c)) (FloatOps.mulf (FloatOps.ofBits .f32 k3) d)

/-- The low-pass (scaling) filter of the Daubechies-2 wavelet divided by √2, as its four single-precision words. -/
def lowpass (a b c d : F .f32) : F .f32 := tap4 0xBDBB67AF#32 0x3E224C29#32 0x3F176CF6#32 0x3EAED9EC#32 a b c d

/-- The high-pass (wavelet) filter: the low-pass words reversed with alternating signs. -/
def highpass (a b c d : F .f32) : F .f32 := tap4 0xBEAED9EC#32 0x3F176CF6#32 0xBE224C29#32 0xBDBB67AF#32 a b c d

/-- The channel an output channel filters at: `q` for `q < 64`, `q - 64` from there on. -/
def chan (q : Fin 128) : Fin 64 := ⟨q.val % 64, Nat.mod_lt _ (by decide)⟩

/-- The transform of one fibre along the channel axis: 64 samples in, 128 coefficients out. -/
def swtAt (x : Fin 64 → F .f32) (q : Fin 128) : F .f32 :=
  if q.val < 64 then lowpass (x (rot (chan q) 2)) (x (rot (chan q) 1)) (x (chan q)) (x (rot (chan q) 63))
  else highpass (x (rot (chan q) 2)) (x (rot (chan q) 1)) (x (chan q)) (x (rot (chan q) 63))

/-- Output channel `p < 64` is the low-pass filter at channel `p`. -/
theorem swtAt_low (x : Fin 64 → F .f32) (p : Fin 64) (q : Fin 128) (hq : q.val = p.val) :
    swtAt x q = lowpass (x (rot p 2)) (x (rot p 1)) (x p) (x (rot p 63)) := by
  have hc : chan q = p := Fin.ext (by show q.val % 64 = p.val; have := p.isLt; omega)
  unfold swtAt
  rw [if_pos (by have := p.isLt; omega), hc]

/-- Output channel `64 + p` is the high-pass filter at channel `p`. -/
theorem swtAt_high (x : Fin 64 → F .f32) (p : Fin 64) (q : Fin 128) (hq : q.val = 64 + p.val) :
    swtAt x q = highpass (x (rot p 2)) (x (rot p 1)) (x p) (x (rot p 63)) := by
  have hc : chan q = p := Fin.ext (by show q.val % 64 = p.val; have := p.isLt; omega)
  unfold swtAt
  rw [if_neg (by omega), hc]

/-- The transform of an array `[B, 64, H, W]`, fibre by fibre: the result is `[B, 128, H, W]`. -/
def swt {B H W : Nat} (x : (⟨4, ![B, 64, H, W]⟩ : Shape).Idx → F .f32) : (⟨4, ![B, 128, H, W]⟩ : Shape).Idx → F .f32 :=
  fun i => swtAt (fun p => x (ix4 (i 0) p (i 2) (i 3))) (i 1)

theorem swt_ix4 {B H W : Nat} (x : (⟨4, ![B, 64, H, W]⟩ : Shape).Idx → F .f32) (b : Fin B) (q : Fin 128) (h : Fin H) (w : Fin W) :
    swt x (ix4 b q h w) = swtAt (fun p => x (ix4 b p h w)) q := rfl

/-- A block of the transform is the transform of the block: if `x` is `X` read through an embedding that moves the batch and
    the two spatial coordinates and leaves the channel alone, and `k` is the output index with the same moved coordinates,
    then the transform of `x` at `j` is the transform of `X` at `k`. -/
theorem swt_reindex {B H W B' H' W' : Nat} (X : (⟨4, ![B', 64, H', W']⟩ : Shape).Idx → F .f32)
    (x : (⟨4, ![B, 64, H, W]⟩ : Shape).Idx → F .f32)
    (j : (⟨4, ![B, 128, H, W]⟩ : Shape).Idx) (k : (⟨4, ![B', 128, H', W']⟩ : Shape).Idx)
    (hq : (k 1).val = (j 1).val)
    (hx : ∀ p : Fin 64, x (ix4 (j 0) p (j 2) (j 3)) = X (ix4 (k 0) p (k 2) (k 3))) :
    swt x j = swt X k := by
  unfold swt
  have hk : (k 1 : Fin 128) = (j 1 : Fin 128) := Fin.ext hq
  rw [show (fun p => x (ix4 (j 0) p (j 2) (j 3))) = fun p => X (ix4 (k 0) p (k 2) (k 3)) from funext hx]
  exact congrArg _ hk.symm

end Cert.Swt

end
-- ==== Proof.Roll.lean ====
/-
  A cyclic shift along an axis of 64 entries, written as both programs write it: the array cut in two along that
  axis — the first `n₁` entries starting at entry `n₂`, then the `n₂` entries starting at entry `0`, where
  `n₁ + n₂ = 64` — and the two pieces laid end to end. Entry `p` of the result is entry `(p + n₂) mod 64` of the array:
  for `p < n₁` it comes from the first piece at `p`, which is the array at `p + n₂ < 64`; from `n₁` on it comes from
  the second piece at `p - n₁`, and `p + n₂ = (p - n₁) + 64`. Stated twice, for the two layouts that occur: a rank-3
  array shifted along its leading axis, and a rank-4 array shifted along its second axis.
-/
import Idealize.ShloMosaic.Lib.Pipeline.Value
import Idealize.ShloMosaic.Lib.ValueIdx
import proofs.«162496_j38740605010207_2_alg».proof.Proof.Swt

noncomputable section

namespace Cert.Swt

open Idealize.ShloMosaic Idealize.ShloMosaic.ValueIdx

variable {α : Type}

/-- The shift along the leading axis of a rank-3 array `[64, H, W]`. -/
theorem roll3_apply {H W : Nat} (n₁ n₂ : Nat) (hn : n₁ + n₂ = 64)
    (v : (⟨3, ![64, H, W]⟩ : Shape).Idx → α)
    (h₁ : (⟨3, ![64, H, W]⟩ : Shape).Slices ![n₂, 0, 0] ⟨3, ![n₁, H, W]⟩)
    (h₂ : (⟨3, ![64, H, W]⟩ : Shape).Slices ![0, 0, 0] ⟨3, ![n₂, H, W]⟩)
    (hc : Shape.Concatenates [⟨3, ![n₁, H, W]⟩, ⟨3, ![n₂, H, W]⟩] ⟨3, ![64, H, W]⟩ 0)
    (p : Fin 64) (h : Fin H) (w : Fin W) :
    concatenate ⟨3, ![64, H, W]⟩ 0 [⟨⟨3, ![n₁, H, W]⟩, extractStridedSlice ⟨3, ![n₁, H, W]⟩ ![n₂, 0, 0] v h₁⟩,
        ⟨⟨3, ![n₂, H, W]⟩, extractStridedSlice ⟨3, ![n₂, H, W]⟩ ![0, 0, 0] v h₂⟩] hc (ix3 p h w)
      = v (ix3 (rot p n₂) h w) := by
  have hp64 : p.val < 64 := p.isLt
  by_cases hp : p.val < n₁
  · refine (concatenate_pair_apply_left (t := ⟨3, ![64, H, W]⟩) (s₁ := ⟨3, ![n₁, H, W]⟩) (s₂ := ⟨3, ![n₂, H, W]⟩) (0 : Fin 3) _ _ hc (ix3 p h w) rfl
      (ix3 (⟨p.val, hp⟩ : Fin n₁) h w : (⟨3, ![n₁, H, W]⟩ : Shape).Idx) ?_).trans ?_
    · intro b
      match b with
      | ⟨0, _⟩ => rfl
      | ⟨1, _⟩ => rfl
      | ⟨2, _⟩ => rfl
    · refine extractStridedSlice_apply _ _ h₁ _ (ix3 (rot p n₂) h w) ?_
      intro b
      match b with
      | ⟨0, _⟩ => show (p.val + n₂) % 64 = n₂ + p.val; omega
      | ⟨1, _⟩ => show h.val = 0 + h.val; omega
      | ⟨2, _⟩ => show w.val = 0 + w.val; omega
  · have hp' : p.val - n₁ < n₂ := by omega
    refine (concatenate_pair_apply_right (t := ⟨3, ![64, H, W]⟩) (s₁ := ⟨3, ![n₁, H, W]⟩) (s₂ := ⟨3, ![n₂, H, W]⟩) (0 : Fin 3) _ _ hc (ix3 p h w) rfl rfl
      (ix3 (⟨p.val - n₁, hp'⟩ : Fin n₂) h w : (⟨3, ![n₂, H, W]⟩ : Shape).Idx) ?_ ?_).trans ?_
    · intro b hb
      match b with
      | ⟨0, _⟩ => exact absurd rfl hb
      | ⟨1, _⟩ => rfl
      | ⟨2, _⟩ => rfl
    · show (p.val - n₁) + n₁ = p.val; omega
    · refine extractStridedSlice_apply _ _ h₂ _ (ix3 (rot p n₂) h w) ?_
      intro b
      match b with
      | ⟨0, _⟩ => show (p.val + n₂) % 64 = 0 + (p.val - n₁); omega
      | ⟨1, _⟩ => show h.val = 0 + h.val; omega
      | ⟨2, _⟩ => show w.val = 0 + w.val; omega

/-- The shift along the second axis of a rank-4 array `[B, 64, H, W]`. -/
theorem roll4_apply {B H W : Nat} (n₁ n₂ : Nat) (hn : n₁ + n₂ = 64)
    (v : (⟨4, ![B, 64, H, W]⟩ : Shape).Idx → α)
    (h₁ : (⟨4, ![B, 64, H, W]⟩ : Shape).Slices ![0, n₂, 0, 0] ⟨4, ![B, n₁, H, W]⟩)
    (h₂ : (⟨4, ![B, 64, H, W]⟩ : Shape).Slices ![0, 0, 0, 0] ⟨4, ![B, n₂, H, W]⟩)
    (hc : Shape.Concatenates [⟨4, ![B, n₁, H, W]⟩, ⟨4, ![B, n₂, H, W]⟩] ⟨4, ![B, 64, H, W]⟩ 1)
    (b : Fin B) (p : Fin 64) (h : Fin H) (w : Fin W) :
    concatenate ⟨4, ![B, 64, H, W]⟩ 1 [⟨⟨4, ![B, n₁, H, W]⟩, extractStridedSlice ⟨4, ![B, n₁, H, W]⟩ ![0, n₂, 0, 0] v h₁⟩,
        ⟨⟨4, ![B, n₂, H, W]⟩, extractStridedSlice ⟨4, ![B, n₂, H, W]⟩ ![0, 0, 0, 0] v h₂⟩] hc (ix4 b p h w)
      = v (ix4 b (rot p n₂) h w) := by
  have hp64 : p.val < 64 := p.isLt
  by_cases hp : p.val < n₁
  · refine (concatenate_pair_apply_left (t := ⟨4, ![B, 64, H, W]⟩) (s₁ := ⟨4, ![B, n₁, H, W]⟩) (s₂ := ⟨4, ![B, n₂, H, W]⟩) (1 : Fin 4) _ _ hc (ix4 b p h w) rfl
      (ix4 b (⟨p.val, hp⟩ : Fin n₁) h w : (⟨4, ![B, n₁, H, W]⟩ : Shape).Idx) ?_).trans ?_
    · intro a
      match a with
      | ⟨0, _⟩ => rfl
      | ⟨1, _⟩ => rfl
      | ⟨2, _⟩ => rfl
      | ⟨3, _⟩ => rfl
    · refine extractStridedSlice_apply _ _ h₁ _ (ix4 b (rot p n₂) h w) ?_
      intro a
      match a with
      | ⟨0, _⟩ => show b.val = 0 + b.val; omega
      | ⟨1, _⟩ => show (p.val + n₂) % 64 = n₂ + p.val; omega
      | ⟨2, _⟩ => show h.val = 0 + h.val; omega
      | ⟨3, _⟩ => show w.val = 0 + w.val; omega
  · have hp' : p.val - n₁ < n₂ := by omega
    refine (concatenate_pair_apply_right (t := ⟨4, ![B, 64, H, W]⟩) (s₁ := ⟨4, ![B, n₁, H, W]⟩) (s₂ := ⟨4, ![B, n₂, H, W]⟩) (1 : Fin 4) _ _ hc (ix4 b p h w) rfl rfl
      (ix4 b (⟨p.val - n₁, hp'⟩ : Fin n₂) h w : (⟨4, ![B, n₂, H, W]⟩ : Shape).Idx) ?_ ?_).trans ?_
    · intro a ha
      match a with
      | ⟨0, _⟩ => rfl
      | ⟨1, _⟩ => exact absurd rfl ha
      | ⟨2, _⟩ => rfl
      | ⟨3, _⟩ => rfl
    · show (p.val - n₁) + n₁ = p.val; omega
    · refine extractStridedSlice_apply _ _ h₂ _ (ix4 b (rot p n₂) h w) ?_
      intro a
      match a with
      | ⟨0, _⟩ => show b.val = 0 + b.val; omega
      | ⟨1, _⟩ => show (p.val + n₂) % 64 = 0 + (p.val - n₁); omega
      | ⟨2, _⟩ => show h.val = 0 + h.val; omega
      | ⟨3, _⟩ => show w.val = 0 + w.val; omega

end Cert.Swt

end
-- ==== Proof.KernelBody.lean ====
/-
  The kernel body's arithmetic, read at an index of its block.

  The body loads one block `[1, 64, 64, 128]` (one batch entry, all 64 channels, a band of 64 rows), drops the unit
  axis, and forms three cyclic shifts of the block along the channel axis (by 2, 1 and 63 channels, each two slices
  laid end to end; the shift by 0 is the block itself). Each of its two stores writes one filter's running sum,
  from zero, of coefficient times shifted block. Read at channel `p`, row `h`, lane `w`, the first store's payload is
  the low-pass filter of the block's fibre through `(h, w)` at channel `p`, and the second's the high-pass filter there.
-/
import proofs.«162496_j38740605010207_2_alg».proof.Proof.Gen.KernelIdeal.Skeleton
import proofs.«162496_j38740605010207_2_alg».proof.Proof.Roll
import Idealize.ShloMosaic.Lib.Pipeline.Value

noncomputable section

namespace Cert.KernelIdeal.Body

open Cert.KernelIdeal Cert.KernelIdeal.Gen Idealize.ShloMosaic Idealize.ShloMosaic.ValueIdx Cert.Swt

variable {F : FTy → Type} [FloatOps F]

/-- The loaded block with its unit axis dropped: entry `(p, h, w)` is the block's entry `(0, p, h, w)`. -/
theorem unbatched_apply (v0 : Vec F S1x64x64x128 .f32) (p : Fin 64) (h : Fin 64) (w : Fin 128) :
    k0_pay2 v0 (ix3 p h w) = v0 (ix4 (0 : Fin 1) p h w) := by
  unfold k0_pay2
  refine shapeCast_apply _ _ (ix3 p h w) (ix4 (0 : Fin 1) p h w) ?_
  rw [Shape.rowMajor_val_four, Shape.rowMajor_val_three]
  show ((0 * 64 + p.val) * 64 + h.val) * 128 + w.val = (p.val * 64 + h.val) * 128 + w.val
  omega

/-- Channels `2 …` then channels `0, 1`: the block shifted by two channels. -/
theorem shifted2_apply (v0 : Vec F S1x64x64x128 .f32) (p : Fin 64) (h : Fin 64) (w : Fin 128) :
    k0_pay3 v0 (ix3 p h w) = v0 (ix4 (0 : Fin 1) (rot p 2) h w) := by
  unfold k0_pay3
  exact (roll3_apply 62 2 rfl (k0_pay2 v0) _ _ _ p h w).trans (unbatched_apply v0 _ h w)

/-- Channels `1 …` then channel `0`: the block shifted by one channel. -/
theorem shifted1_apply (v0 : Vec F S1x64x64x128 .f32) (p : Fin 64) (h : Fin 64) (w : Fin 128) :
    k0_pay4 v0 (ix3 p h w) = v0 (ix4 (0 : Fin 1) (rot p 1) h w) := by
  unfold k0_pay4
  exact (roll3_apply 63 1 rfl (k0_pay2 v0) _ _ _ p h w).trans (unbatched_apply v0 _ h w)

/-- Channel `63` then channels `0 … 62`: the block shifted by 63 channels (one channel back). -/
theorem shifted63_apply (v0 : Vec F S1x64x64x128 .f32) (p : Fin 64) (h : Fin 64) (w : Fin 128) :
    k0_pay5 v0 (ix3 p h w) = v0 (ix4 (0 : Fin 1) (rot p 63) h w) := by
  unfold k0_pay5
  exact (roll3_apply 1 63 rfl (k0_pay2 v0) _ _ _ p h w).trans (unbatched_apply v0 _ h w)

/-- A value of shape `[64, 64, 128]` given its unit axis back: entry `(z, p, h, w)` is entry `(p, h, w)`. -/
theorem batched_apply {α : Type} (v : S64x64x128.Idx → α) (hc : S64x64x128.ShapeCasts S1x64x64x128)
    (z : Fin 1) (p : Fin 64) (h : Fin 64) (w : Fin 128) :
    shapeCast S1x64x64x128 v hc (ix4 z p h w) = v (ix3 p h w) := by
  refine shapeCast_apply _ _ (ix4 z p h w) (ix3 p h w) ?_
  rw [Shape.rowMajor_val_four, Shape.rowMajor_val_three]
  show (p.val * 64 + h.val) * 128 + w.val = ((z.val * 64 + p.val) * 64 + h.val) * 128 + w.val
  have : z.val = 0 := by have := z.isLt; omega
  rw [this]; omega

/-- The first store's payload: the low-pass filter of the block's fibre, channel by channel. -/
theorem low_piece (v0 : Vec F S1x64x64x128 .f32) (z : Fin 1) (p : Fin 64) (h : Fin 64) (w : Fin 128) :
    k0_pay7 v0 (ix4 z p h w)
      = lowpass (v0 (ix4 (0 : Fin 1) (rot p 2) h w)) (v0 (ix4 (0 : Fin 1) (rot p 1) h w)) (v0 (ix4 (0 : Fin 1) p h w))
          (v0 (ix4 (0 : Fin 1) (rot p 63) h w)) := by
  unfold k0_pay7
  rw [batched_apply]
  simp only [addf, mulf, broadcast]
  rw [shifted2_apply, shifted1_apply, unbatched_apply, shifted63_apply]
  rfl

/-- The second store's payload: the high-pass filter of the block's fibre, channel by channel. -/
theorem high_piece (v0 : Vec F S1x64x64x128 .f32) (z : Fin 1) (p : Fin 64) (h : Fin 64) (w : Fin 128) :
    k0_pay1 (k0_pay6 v0) (ix4 z p h w)
      = highpass (v0 (ix4 (0 : Fin 1) (rot p 2) h w)) (v0 (ix4 (0 : Fin 1) (rot p 1) h w)) (v0 (ix4 (0 : Fin 1) p h w))
          (v0 (ix4 (0 : Fin 1) (rot p 63) h w)) := by
  unfold k0_pay1 k0_pay6
  rw [batched_apply]
  simp only [addf, mulf, broadcast]
  rw [shifted2_apply, shifted1_apply, unbatched_apply, shifted63_apply]
  rfl

end Cert.KernelIdeal.Body

end
-- ==== Proof.KernelValue.lean ====
/-
  The kernel's result array is the transform `swt` of its argument array.

  A grid point `(b, g)` stages block `(b, 0, g, 0)` of the argument — batch entry `b`, all channels, rows
  `64 g … 64 g + 63` — and writes back block `(b, 0, g, 0)` of the result: the same batch entry and rows, all 128
  output channels. The body's two stores tile the output block (output channels 0–63 and 64–127), and each piece is
  the transform of the input block at the piece's indices, so what the body leaves is the transform of the input block.
  The transform works along the channel axis only and the blocks hold whole channel fibres, so the transform of a
  block is the block of the transform. The sixteen output blocks tile the result array: index `(b, q, r, w)` lies in
  the block of point `(b, r / 64)`.
-/
import proofs.«162496_j38740605010207_2_alg».proof.Proof.Gen.KernelIdeal.Value
import proofs.«162496_j38740605010207_2_alg».proof.Proof.KernelBody
import Idealize.ShloMosaic.Lib.Pipeline.Value

set_option maxRecDepth 16384

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Cert.Swt
open Idealize.ShloMosaic.Pipeline (Dat)

variable {F : FTy → Type} [FloatOps F]
variable (m : (ℓ : Loc nD τ sig) → Buf (Elt F) ℓ) (ρ : Dev nD → PrngReg)

theorem zeros4 : (![0, 0, 0, 0] : Fin 4 → Nat) = fun _ => 0 := funext fun a => by fin_cases a <;> rfl

/-! ## What the body leaves in the output block -/

/-- Where the first store's rectangle puts its entry `(z, p, h, w)`: output channel `p`. -/
theorem emb_low (z : Fin 1) (p : Fin 64) (h : Fin 64) (w : Fin 128) :
    r0_1.emb (ix4 z p h w) = (ix4 (0 : Fin 1) (⟨p.val, by omega⟩ : Fin 128) h w : S1x128x64x128.Idx) := by
  funext a
  apply Fin.ext
  match a with
  | ⟨0, _⟩ => show 0 + 1 * z.val = 0; have := z.isLt; omega
  | ⟨1, _⟩ => show 0 + 1 * p.val = p.val; omega
  | ⟨2, _⟩ => show 0 + 1 * h.val = h.val; omega
  | ⟨3, _⟩ => show 0 + 1 * w.val = w.val; omega

/-- Where the second store's rectangle puts its entry `(z, p, h, w)`: output channel `64 + p`. -/
theorem emb_high (z : Fin 1) (p : Fin 64) (h : Fin 64) (w : Fin 128) :
    r0_2.emb (ix4 z p h w) = (ix4 (0 : Fin 1) (⟨64 + p.val, by omega⟩ : Fin 128) h w : S1x128x64x128.Idx) := by
  funext a
  apply Fin.ext
  match a with
  | ⟨0, _⟩ => show 0 + 1 * z.val = 0; have := z.isLt; omega
  | ⟨1, _⟩ => show 64 + 1 * p.val = 64 + p.val; omega
  | ⟨2, _⟩ => show 0 + 1 * h.val = h.val; omega
  | ⟨3, _⟩ => show 0 + 1 * w.val = w.val; omega

/-- THE BODY: the output block it leaves is the transform of the input block. Both stored pieces are restrictions of
    that one function of the block index, and together they cover the block. -/
theorem body_eq (x0 : Vec F S1x64x64x128 .f32) : out0_1 x0 = swt x0 := by
  funext y
  unfold out0_1
  rw [View.ld_unit_zero (S := S1x64x64x128) zeros4]
  refine View.canon_apply_of_pieces (swt x0) _ ?_ y (cover0_1 _ _ y)
  intro pc hpc x
  rcases List.mem_cons.mp hpc with rfl | hpc
  · obtain ⟨z, p, h, w, rfl⟩ : ∃ (z : Fin 1) (p : Fin 64) (h : Fin 64) (w : Fin 128), x = ix4 z p h w :=
      ⟨x 0, x 1, x 2, x 3, eq_ix4 x⟩
    show k0_pay1 (k0_pay6 x0) (ix4 z p h w) = swt x0 (r0_2.emb (ix4 z p h w))
    rw [high_piece, emb_high, swt_ix4, swtAt_high _ p _ rfl]
  · rcases List.mem_cons.mp hpc with rfl | hpc
    · obtain ⟨z, p, h, w, rfl⟩ : ∃ (z : Fin 1) (p : Fin 64) (h : Fin 64) (w : Fin 128), x = ix4 z p h w :=
        ⟨x 0, x 1, x 2, x 3, eq_ix4 x⟩
      show k0_pay7 x0 (ix4 z p h w) = swt x0 (r0_1.emb (ix4 z p h w))
      rw [low_piece, emb_low, swt_ix4, swtAt_low _ p _ rfl]
    · exact absurd hpc (List.not_mem_nil)

/-! ## From blocks to the array -/

/-- The two index maps, decided over the sixteen grid points: both windows move together on the batch axis and the
    row axis and stay at block 0 on the channel axis and the lane axis. -/
theorem idx_facts : ∀ t : Fin cfg0.N, win0_0.index t (0 : Fin 4) = win0_1.index t (0 : Fin 4)
    ∧ win0_0.index t (1 : Fin 4) = 0 ∧ win0_1.index t (1 : Fin 4) = 0
    ∧ win0_0.index t (2 : Fin 4) = win0_1.index t (2 : Fin 4)
    ∧ win0_0.index t (3 : Fin 4) = 0 ∧ win0_1.index t (3 : Fin 4) = 0 :=
  (by decide +kernel : ∀ t : Fin grid0.N, _)

/-- Every pair (batch entry, row band) is some point's output block. -/
theorem idx_onto : ∀ (q0 : Fin 8) (q2 : Fin 2), ∃ t : Fin cfg0.N, win0_1.index t = ![q0.val, 0, q2.val, 0] :=
  (by decide +kernel : ∀ (q0 : Fin 8) (q2 : Fin 2), ∃ t : Fin grid0.N, win0_1.index t = ![q0.val, 0, q2.val, 0])

/-- WHAT POINT `t` WRITES BACK is block `t` of the transform of the argument array. -/
theorem flushed_eq (c : Dev nD) (t : Fin cfg0.N) :
    (dats m 0 c).flushed 1 t
      = ((cfg0.win 1).blk t).view.read (Elt F) (swt (V m c main_arg0 : S8x64x128x128.Idx → Elt F .f32)) := by
  rw [Value.flushed1, body_eq]
  obtain ⟨e0, e1, e1', e2, e3, e3'⟩ := idx_facts t
  funext j
  show swt (iblk m c 0 t) j = swt (V m c main_arg0 : S8x64x128x128.Idx → Elt F .f32) (((cfg0.win 1).blk t).view.emb j)
  refine swt_reindex (V m c main_arg0 : S8x64x128x128.Idx → Elt F .f32) (iblk m c 0 t) j _ ?_ ?_
  · show win0_1.index t (1 : Fin 4) * 128 + 1 * (j 1).val = (j 1).val
    rw [e1']; omega
  · intro p
    show V m c main_arg0 (((cfg0.win 0).blk t).view.emb (ix4 (j 0) p (j 2) (j 3))) = V m c main_arg0 _
    refine congrArg _ (funext fun a => Fin.ext ?_)
    match a with
    | ⟨0, _⟩ => show win0_0.index t (0 : Fin 4) * 1 + 1 * (j 0).val = win0_1.index t (0 : Fin 4) * 1 + 1 * (j 0).val; omega
    | ⟨1, _⟩ => show win0_0.index t (1 : Fin 4) * 64 + 1 * p.val = p.val; omega
    | ⟨2, _⟩ => show win0_0.index t (2 : Fin 4) * 64 + 1 * (j 2).val = win0_1.index t (2 : Fin 4) * 64 + 1 * (j 2).val; omega
    | ⟨3, _⟩ => show win0_0.index t (3 : Fin 4) * 128 + 1 * (j 3).val = win0_1.index t (3 : Fin 4) * 128 + 1 * (j 3).val; omega

/-- An index of the result array is in point `t`'s block iff each coordinate is in the block's range on its axis. -/
theorem mem_blk (t : Fin cfg0.N) (i : S8x128x128x128.Idx) :
    i ∈ ((cfg0.win 1).blk t).view.set ↔ ∀ a : Fin 4, win0_1.index t a * S1x128x64x128.size a ≤ (i a).val
      ∧ (i a).val < win0_1.index t a * S1x128x64x128.size a + S1x128x64x128.size a := by
  show i ∈ ((View.whole main_v0).slice (win0_1.rect t)).set ↔ _
  rw [View.set_slice_whole, Rect.mem_set_unit]
  exact Iff.rfl

/-- The output blocks cover the result array. -/
theorem cover (i : S8x128x128x128.Idx) :
    ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 2).val / 64, by omega⟩
  have q0 : win0_1.index t (0 : Fin 4) = (i 0).val := congrFun ht 0
  have q1 : win0_1.index t (1 : Fin 4) = 0 := congrFun ht 1
  have q2 : win0_1.index t (2 : Fin 4) = (i 2).val / 64 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 64 ≤ (i 2).val ∧ (i 2).val < win0_1.index t (2 : Fin 4) * 64 + 64; omega
  | ⟨3, _⟩ => show win0_1.index t (3 : Fin 4) * 128 ≤ (i 3).val ∧ (i 3).val < win0_1.index t (3 : Fin 4) * 128 + 128; omega

/-- THE RESULT ARRAY after the run is the transform of the argument array. -/
theorem final (c : Dev nD) :
    (dats m 0 c).arrAt 1 cfg0.N = swt (m ((c : Thread nD τ).loc main_arg0) : S8x64x128x128.Idx → Elt F .f32) :=
  (dats m 0 c).arrAt_eq_of_cover 1 (swt (V m c main_arg0 : S8x64x128x128.Idx → Elt F .f32)) (fun t _ => flushed_eq m c t) cover

/-- The run, read: the result array at the transform of the argument, the argument unchanged. -/
theorem run : θ_run defs (onTc (τ := τ) (main (F := F))) ⟨m, fun _ => 0, ρ⟩ fun r => ∀ c : Dev nD,
      r.2.mem ((c : Thread nD τ).loc main_v0) = swt (m ((c : Thread nD τ).loc main_arg0) : S8x64x128x128.Idx → Elt F .f32)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefRun.lean ====
/-
  The reference program's @main read back as a straight line of host operations, and what it computes.

  The reference takes four cyclic shifts of the input along the channel axis (by 2, 1, 0 and 63 channels, each
  written as two slices laid end to end), reads each filter coefficient out of a four-entry table (a slice of one
  entry, reshaped to a scalar, splat over the array), and forms each filter's output as the running sum from zero
  of coefficient times shifted input; the low-pass and the high-pass outputs are then laid end to end along
  the channel axis. Below: the operations in order (those of the four shift functions listed at their calls), that
  @main is that list, the result as one term of the argument (`result`), and the run.
-/
import proofs.«162496_j38740605010207_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's 59 operations, in order: the two coefficient tables; the four shifts (two slices and their
    concatenation each); the low-pass chain (per tap: the table's entry sliced, reshaped, splat, multiplied by
    the shifted input, added on; the zero the sum starts from after the first product); the high-pass chain
    likewise; the final concatenation. -/
abbrev ops : List (HloOp τ sig (Elt F)) :=
  [ nullary main_cst (fun i => FloatOps.ofBits .f32 (lit0 (S4.rowMajor i))),
    nullary main_cst_0 (fun i => FloatOps.ofBits .f32 (lit1 (S4.rowMajor i))),
    TRef.unary (.of main_arg0 : TRef sig ⟨S8x64x128x128, .f32⟩) main_call0.v0 (extractStridedSlice S8x62x128x128 ![0, 2, 0, 0] · slices_S8x64x128x128_S8x62x128x128_0_2_0_0),
    TRef.unary (.of main_arg0 : TRef sig ⟨S8x64x128x128, .f32⟩) main_call0.v1 (extractStridedSlice S8x2x128x128 ![0, 0, 0, 0] · slices_S8x64x128x128_S8x2x128x128_0_0_0_0),
    TRef.binary main_call0.v0 main_call0.v1 main_call0.v2 (fun a b => concatenate S8x64x128x128 1 [⟨S8x62x128x128, a⟩, ⟨S8x2x128x128, b⟩] concatenates_S8x62x128x128_S8x2x128x128_S8x64x128x128_d1),
    TRef.unary (.of main_arg0 : TRef sig ⟨S8x64x128x128, .f32⟩) main_call1.v0 (extractStridedSlice S8x63x128x128 ![0, 1, 0, 0] · slices_S8x64x128x128_S8x63x128x128_0_1_0_0),
    TRef.unary (.of main_arg0 : TRef sig ⟨S8x64x128x128, .f32⟩) main_call1.v1 (extractStridedSlice S8x1x128x128 ![0, 0, 0, 0] · slices_S8x64x128x128_S8x1x128x128_0_0_0_0),
    TRef.binary main_call1.v0 main_call1.v1 main_call1.v2 (fun a b => concatenate S8x64x128x128 1 [⟨S8x63x128x128, a⟩, ⟨S8x1x128x128, b⟩] concatenates_S8x63x128x128_S8x1x128x128_S8x64x128x128_d1),
    TRef.unary (.of main_arg0 : TRef sig ⟨S8x64x128x128, .f32⟩) main_call2.v0 (extractStridedSlice S8x64x128x128 ![0, 0, 0, 0] · slices_S8x64x128x128_S8x64x128x128_0_0_0_0),
    TRef.unary (.of main_arg0 : TRef sig ⟨S8x64x128x128, .f32⟩) main_call2.v1 (extractStridedSlice S8x0x128x128 ![0, 0, 0, 0] · slices_S8x64x128x128_S8x0x128x128_0_0_0_0),
    TRef.binary main_call2.v0 main_call2.v1 main_call2.v2 (fun a b => concatenate S8x64x128x128 1 [⟨S8x64x128x128, a⟩, ⟨S8x0x128x128, b⟩] concatenates_S8x64x128x128_S8x0x128x128_S8x64x128x128_d1),
    TRef.unary (.of main_arg0 : TRef sig ⟨S8x64x128x128, .f32⟩) main_call3.v0 (extractStridedSlice S8x1x128x128 ![0, 63, 0, 0] · slices_S8x64x128x128_S8x1x128x128_0_63_0_0),
    TRef.unary (.of main_arg0 : TRef sig ⟨S8x64x128x128, .f32⟩) main_call3.v1 (extractStridedSlice S8x63x128x128 ![0, 0, 0, 0] · slices_S8x64x128x128_S8x63x128x128_0_0_0_0),
    TRef.binary main_call3.v0 main_call3.v1 main_call3.v2 (fun a b => concatenate S8x64x128x128 1 [⟨S8x1x128x128, a⟩, ⟨S8x63x128x128, b⟩] concatenates_S8x1x128x128_S8x63x128x128_S8x64x128x128_d1),
    unary main_cst main_v4 ((extractStridedSlice S1 ![0] · slices_S4_S1_0) : (⟨S4, .f32⟩ : BufTy).Contents (Elt F) → (⟨S1, .f32⟩ : BufTy).Contents (Elt F)),
    reshape main_v4 main_v5 rfl shapeCasts_S1_S_,
    unary main_v5 main_v6 (broadcastInDim S8x64x128x128 ![] bcast_S_S8x64x128x128 : (⟨S_, .f32⟩ : BufTy).Contents (Elt F) → (⟨S8x64x128x128, .f32⟩ : BufTy).Contents (Elt F)),
    binary main_v6 main_v0 main_v7 (mulf : (⟨S8x64x128x128, .f32⟩ : BufTy).Contents (Elt F) → (⟨S8x64x128x128, .f32⟩ : BufTy).Contents (Elt F) → (⟨S8x64x128x128, .f32⟩ : BufTy).Contents (Elt F)),
    nullary main_cst_1 (constant S_ .f32 0x00000000#32),
    unary main_cst_1 main_v8 (broadcastInDim S8x64x128x128 ![] bcast_S_S8x64x128x128 : (⟨S_, .f32⟩ : BufTy).Contents (Elt F) → (⟨S8x64x128x128, .f32⟩ : BufTy).Contents (Elt F)),
    binary main_v8 main_v7 main_v9 (addf : (⟨S8x64x128x128, .f32⟩ : BufTy).Contents (Elt F) → (⟨S8x64x128x128, .f32⟩ : BufTy).Contents (Elt F) → (⟨S8x64x128x128, .f32⟩ : BufTy).Contents (Elt F)),
    unary main_cst main_v10 ((extractStridedSlice S1 ![1] · slices_S4_S1_1) : (⟨S4, .f32⟩ : BufTy).Contents (Elt F) → (⟨S1, .f32⟩ : BufTy).Contents (Elt F)),
    reshape main_v10 main_v11 rfl shapeCasts_S1_S_,
    unary main_v11 main_v12 (broadcastInDim S8x64x128x128 ![] bcast_S_S8x64x128x128 : (⟨S_, .f32⟩ : BufTy).Contents (Elt F) → (⟨S8x64x128x128, .f32⟩ : BufTy).Contents (Elt F)),
    binary main_v12 main_v1 main_v13 (mulf : (⟨S8x64x128x128, .f32⟩ : BufTy).Contents (Elt F) → (⟨S8x64x128x128, .f32⟩ : BufTy).Contents (Elt F) → (⟨S8x64x128x128, .f32⟩ : BufTy).Contents (Elt F)),
    binary main_v9 main_v13 main_v14 (addf : (⟨S8x64x128x128, .f32⟩ : BufTy).Contents (Elt F) → (⟨S8x64x128x128, .f32⟩ : BufTy).Contents (Elt F) → (⟨S8x64x128x128, .f32⟩ : BufTy).Contents (Elt F)),
    unary main_cst main_v15 ((extractStridedSlice S1 ![2] · slices_S4_S1_2) : (⟨S4, .f32⟩ : BufTy).Contents (Elt F) → (⟨S1, .f32⟩ : BufTy).Contents (Elt F)),
    reshape main_v15 main_v16 rfl shapeCasts_S1_S_,
    unary main_v16 main_v17 (broadcastInDim S8x64x128x128 ![] bcast_S_S8x64x128x128 : (⟨S_, .f32⟩ : BufTy).Contents (Elt F) → (⟨S8x64x128x128, .f32⟩ : BufTy).Contents (Elt F)),
    binary main_v17 main_v2 main_v18 (mulf : (⟨S8x64x128x128, .f32⟩ : BufTy).Contents (Elt F) → (⟨S8x64x128x128, .f32⟩ : BufTy).Contents (Elt F) → (⟨S8x64x128x128, .f32⟩ : BufTy).Contents (Elt F)),
    binary main_v14 main_v18 main_v19 (addf : (⟨S8x64x128x128, .f32⟩ : BufTy).Contents (Elt F) → (⟨S8x64x128x128, .f32⟩ : BufTy).Contents (Elt F) → (⟨S8x64x128x128, .f32⟩ : BufTy).Contents (Elt F)),
    unary main_cst main_v20 ((extractStridedSlice S1 ![3] · slices_S4_S1_3) : (⟨S4, .f32⟩ : BufTy).Contents (Elt F) → (⟨S1, .f32⟩ : BufTy).Contents (Elt F)),
    reshape main_v20 main_v21 rfl shapeCasts_S1_S_,
    unary main_v21 main_v22 (broadcastInDim S8x64x128x128 ![] bcast_S_S8x64x128x128 : (⟨S_, .f32⟩ : BufTy).Contents (Elt F) → (⟨S8x64x128x128, .f32⟩ : BufTy).Contents (Elt F)),
    binary main_v22 main_v3 main_v23 (mulf : (⟨S8x64x128x128, .f32⟩ : BufTy).Contents (Elt F) → (⟨S8x64x128x128, .f32⟩ : BufTy).Contents (Elt F) → (⟨S8x64x128x128, .f32⟩ : BufTy).Contents (Elt F)),
    binary main_v19 main_v23 main_v24 (addf : (⟨S8x64x128x128, .f32⟩ : BufTy).Contents (Elt F) → (⟨S8x64x128x128, .f32⟩ : BufTy).Contents (Elt F) → (⟨S8x64x128x128, .f32⟩ : BufTy).Contents (Elt F)),
    unary main_cst_0 main_v25 ((extractStridedSlice S1 ![0] · slices_S4_S1_0) : (⟨S4, .f32⟩ : BufTy).Contents (Elt F) → (⟨S1, .f32⟩ : BufTy).Contents (Elt F)),
    reshape main_v25 main_v26 rfl shapeCasts_S1_S_,
    unary main_v26 main_v27 (broadcastInDim S8x64x128x128 ![] bcast_S_S8x64x128x128 : (⟨S_, .f32⟩ : BufTy).Contents (Elt F) → (⟨S8x64x128x128, .f32⟩ : BufTy).Contents (Elt F)),
    binary main_v27 main_v0 main_v28 (mulf : (⟨S8x64x128x128, .f32⟩ : BufTy).Contents (Elt F) → (⟨S8x64x128x128, .f32⟩ : BufTy).Contents (Elt F) → (⟨S8x64x128x128, .f32⟩ : BufTy).Contents (Elt F)),
    nullary main_cst_2 (constant S_ .f32 0x00000000#32),
    unary main_cst_2 main_v29 (broadcastInDim S8x64x128x128 ![] bcast_S_S8x64x128x128 : (⟨S_, .f32⟩ : BufTy).Contents (Elt F) → (⟨S8x64x128x128, .f32⟩ : BufTy).Contents (Elt F)),
    binary main_v29 main_v28 main_v30 (addf : (⟨S8x64x128x128, .f32⟩ : BufTy).Contents (Elt F) → (⟨S8x64x128x128, .f32⟩ : BufTy).Contents (Elt F) → (⟨S8x64x128x128, .f32⟩ : BufTy).Contents (Elt F)),
    unary main_cst_0 main_v31 ((extractStridedSlice S1 ![1] · slices_S4_S1_1) : (⟨S4, .f32⟩ : BufTy).Contents (Elt F) → (⟨S1, .f32⟩ : BufTy).Contents (Elt F)),
    reshape main_v31 main_v32 rfl shapeCasts_S1_S_,
    unary main_v32 main_v33 (broadcastInDim S8x64x128x128 ![] bcast_S_S8x64x128x128 : (⟨S_, .f32⟩ : BufTy).Contents (Elt F) → (⟨S8x64x128x128, .f32⟩ : BufTy).Contents (Elt F)),
    binary main_v33 main_v1 main_v34 (mulf : (⟨S8x64x128x128, .f32⟩ : BufTy).Contents (Elt F) → (⟨S8x64x128x128, .f32⟩ : BufTy).Contents (Elt F) → (⟨S8x64x128x128, .f32⟩ : BufTy).Contents (Elt F)),
    binary main_v30 main_v34 main_v35 (addf : (⟨S8x64x128x128, .f32⟩ : BufTy).Contents (Elt F) → (⟨S8x64x128x128, .f32⟩ : BufTy).Contents (Elt F) → (⟨S8x64x128x128, .f32⟩ : BufTy).Contents (Elt F)),
    unary main_cst_0 main_v36 ((extractStridedSlice S1 ![2] · slices_S4_S1_2) : (⟨S4, .f32⟩ : BufTy).Contents (Elt F) → (⟨S1, .f32⟩ : BufTy).Contents (Elt F)),
    reshape main_v36 main_v37 rfl shapeCasts_S1_S_,
    unary main_v37 main_v38 (broadcastInDim S8x64x128x128 ![] bcast_S_S8x64x128x128 : (⟨S_, .f32⟩ : BufTy).Contents (Elt F) → (⟨S8x64x128x128, .f32⟩ : BufTy).Contents (Elt F)),
    binary main_v38 main_v2 main_v39 (mulf : (⟨S8x64x128x128, .f32⟩ : BufTy).Contents (Elt F) → (⟨S8x64x128x128, .f32⟩ : BufTy).Contents (Elt F) → (⟨S8x64x128x128, .f32⟩ : BufTy).Contents (Elt F)),
    binary main_v35 main_v39 main_v40 (addf : (⟨S8x64x128x128, .f32⟩ : BufTy).Contents (Elt F) → (⟨S8x64x128x128, .f32⟩ : BufTy).Contents (Elt F) → (⟨S8x64x128x128, .f32⟩ : BufTy).Contents (Elt F)),
    unary main_cst_0 main_v41 ((extractStridedSlice S1 ![3] · slices_S4_S1_3) : (⟨S4, .f32⟩ : BufTy).Contents (Elt F) → (⟨S1, .f32⟩ : BufTy).Contents (Elt F)),
    reshape main_v41 main_v42 rfl shapeCasts_S1_S_,
    unary main_v42 main_v43 (broadcastInDim S8x64x128x128 ![] bcast_S_S8x64x128x128 : (⟨S_, .f32⟩ : BufTy).Contents (Elt F) → (⟨S8x64x128x128, .f32⟩ : BufTy).Contents (Elt F)),
    binary main_v43 main_v3 main_v44 (mulf : (⟨S8x64x128x128, .f32⟩ : BufTy).Contents (Elt F) → (⟨S8x64x128x128, .f32⟩ : BufTy).Contents (Elt F) → (⟨S8x64x128x128, .f32⟩ : BufTy).Contents (Elt F)),
    binary main_v40 main_v44 main_v45 (addf : (⟨S8x64x128x128, .f32⟩ : BufTy).Contents (Elt F) → (⟨S8x64x128x128, .f32⟩ : BufTy).Contents (Elt F) → (⟨S8x64x128x128, .f32⟩ : BufTy).Contents (Elt F)),
    binary main_v24 main_v45 main_v46 ((fun a b => concatenate S8x128x128x128 1 [⟨S8x64x128x128, a⟩, ⟨S8x64x128x128, b⟩] concatenates_S8x64x128x128_S8x64x128x128_S8x128x128x128_d1) : (⟨S8x64x128x128, .f32⟩ : BufTy).Contents (Elt F) → (⟨S8x64x128x128, .f32⟩ : BufTy).Contents (Elt F) → (⟨S8x128x128x128, .f32⟩ : BufTy).Contents (Elt F)) ]

-- fifty-nine binds re-associated
set_option maxRecDepth 2048 in
/-- @main is that straight line: the shift functions unfolded at their calls. -/
theorem main_eq (c : Dev nD) : main (F := F) c = seq ops := by
  simp only [main, fn_roll_static.body, fn_roll_static_0.body, fn_roll_static_1.body, fn_roll_static_2.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., nullary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., binary_bufs_sub ..⟩

/-! ## The result as one term of the argument -/

/-- The input shifted by `n₂` channels, as the reference writes it: channels `n₂ …` then channels `0 … n₂ - 1`. -/
abbrev shift2 (x : FVec F S8x64x128x128 .f32) : FVec F S8x64x128x128 .f32 :=
  concatenate S8x64x128x128 1 [⟨S8x62x128x128, extractStridedSlice S8x62x128x128 ![0, 2, 0, 0] x slices_S8x64x128x128_S8x62x128x128_0_2_0_0⟩,
    ⟨S8x2x128x128, extractStridedSlice S8x2x128x128 ![0, 0, 0, 0] x slices_S8x64x128x128_S8x2x128x128_0_0_0_0⟩] concatenates_S8x62x128x128_S8x2x128x128_S8x64x128x128_d1
abbrev shift1 (x : FVec F S8x64x128x128 .f32) : FVec F S8x64x128x128 .f32 :=
  concatenate S8x64x128x128 1 [⟨S8x63x128x128, extractStridedSlice S8x63x128x128 ![0, 1, 0, 0] x slices_S8x64x128x128_S8x63x128x128_0_1_0_0⟩,
    ⟨S8x1x128x128, extractStridedSlice S8x1x128x128 ![0, 0, 0, 0] x slices_S8x64x128x128_S8x1x128x128_0_0_0_0⟩] concatenates_S8x63x128x128_S8x1x128x128_S8x64x128x128_d1
abbrev shift0 (x : FVec F S8x64x128x128 .f32) : FVec F S8x64x128x128 .f32 :=
  concatenate S8x64x128x128 1 [⟨S8x64x128x128, extractStridedSlice S8x64x128x128 ![0, 0, 0, 0] x slices_S8x64x128x128_S8x64x128x128_0_0_0_0⟩,
    ⟨S8x0x128x128, extractStridedSlice S8x0x128x128 ![0, 0, 0, 0] x slices_S8x64x128x128_S8x0x128x128_0_0_0_0⟩] concatenates_S8x64x128x128_S8x0x128x128_S8x64x128x128_d1
abbrev shift63 (x : FVec F S8x64x128x128 .f32) : FVec F S8x64x128x128 .f32 :=
  concatenate S8x64x128x128 1 [⟨S8x1x128x128, extractStridedSlice S8x1x128x128 ![0, 63, 0, 0] x slices_S8x64x128x128_S8x1x128x128_0_63_0_0⟩,
    ⟨S8x63x128x128, extractStridedSlice S8x63x128x128 ![0, 0, 0, 0] x slices_S8x64x128x128_S8x63x128x128_0_0_0_0⟩] concatenates_S8x1x128x128_S8x63x128x128_S8x64x128x128_d1

/-- The low-pass coefficient table and the high-pass one. -/
abbrev lowTable : FVec F S4 .f32 := fun i => FloatOps.ofBits .f32 (lit0 (S4.rowMajor i))
abbrev highTable : FVec F S4 .f32 := fun i => FloatOps.ofBits .f32 (lit1 (S4.rowMajor i))

/-- Entry `n` of a table, splat over the array. -/
abbrev splat0 (tbl : FVec F S4 .f32) : FVec F S8x64x128x128 .f32 :=
  broadcastInDim S8x64x128x128 ![] bcast_S_S8x64x128x128 (shapeCast S_ (extractStridedSlice S1 ![0] tbl slices_S4_S1_0) shapeCasts_S1_S_)
abbrev splat1 (tbl : FVec F S4 .f32) : FVec F S8x64x128x128 .f32 :=
  broadcastInDim S8x64x128x128 ![] bcast_S_S8x64x128x128 (shapeCast S_ (extractStridedSlice S1 ![1] tbl slices_S4_S1_1) shapeCasts_S1_S_)
abbrev splat2 (tbl : FVec F S4 .f32) : FVec F S8x64x128x128 .f32 :=
  broadcastInDim S8x64x128x128 ![] bcast_S_S8x64x128x128 (shapeCast S_ (extractStridedSlice S1 ![2] tbl slices_S4_S1_2) shapeCasts_S1_S_)
abbrev splat3 (tbl : FVec F S4 .f32) : FVec F S8x64x128x128 .f32 :=
  broadcastInDim S8x64x128x128 ![] bcast_S_S8x64x128x128 (shapeCast S_ (extractStridedSlice S1 ![3] tbl slices_S4_S1_3) shapeCasts_S1_S_)

/-- One filter's output: the running sum, from zero, of coefficient times shifted input. -/
abbrev filtered (tbl : FVec F S4 .f32) (x : FVec F S8x64x128x128 .f32) : FVec F S8x64x128x128 .f32 :=
  addf (addf (addf (addf (broadcastInDim S8x64x128x128 ![] bcast_S_S8x64x128x128 (constant S_ .f32 0x00000000#32))
    (mulf (splat0 tbl) (shift2 x))) (mulf (splat1 tbl) (shift1 x))) (mulf (splat2 tbl) (shift0 x))) (mulf (splat3 tbl) (shift63 x))

/-- The reference's result: the two filters' outputs laid end to end along the channel axis. -/
abbrev result (x : FVec F S8x64x128x128 .f32) : FVec F S8x128x128x128 .f32 :=
  concatenate S8x128x128x128 1 [⟨S8x64x128x128, filtered lowTable x⟩, ⟨S8x64x128x128, filtered highTable x⟩]
    concatenates_S8x64x128x128_S8x64x128x128_S8x128x128x128_d1

/-- On every device, for any float values, from any memory with zero counters: every weakly fair execution of
    @main terminates with the result buffer at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = result (m ((c.tc : Thread nD τ).loc main_arg0))
      ∧ r.2.mem ((c.tc : Thread nD τ).loc main_arg0) = m ((c.tc : Thread nD τ).loc main_arg0) :=
  (θ_run defs _ _).mono (fun _ h c => ⟨(h c main_v46).trans (by after_results_simp <;> rfl),
      (h c main_arg0).trans (by after_results_simp <;> rfl)⟩)
    (run_seq scopedRefs_eq scopedSems_eq defs main (fun _ => ops) main_eq (fun _ => ops_sub) m ρ)

end Cert.ReferenceIdeal.Straight

end
-- ==== Proof.RefValue.lean ====
/-
  What the reference computes is the transform `swt` of its argument.

  Read at an index `(b, q, h, w)` of the result: the final concatenation takes output channel `q < 64` from the
  low-pass chain at channel `q` and output channel `q ≥ 64` from the high-pass chain at channel `q - 64`; a chain at
  `(b, p, h, w)` is the running sum from zero of its four products; each product's coefficient is one entry of the
  chain's four-entry table, whichever index it is read at; each shifted input at `(b, p, h, w)` is the input at
  channel `p + s` round the cycle. That is the filter of the fibre through `(b, h, w)`, term for term.
-/
import proofs.«162496_j38740605010207_2_alg».proof.Proof.RefRun
import proofs.«162496_j38740605010207_2_alg».proof.Proof.Roll
import Idealize.ShloMosaic.Lib.Pipeline.Value

noncomputable section

namespace Cert.ReferenceIdeal.Straight

open Cert.ReferenceIdeal Cert.ReferenceIdeal.Gen Idealize.ShloMosaic Idealize.ShloMosaic.ValueIdx Cert.Swt

variable {F : FTy → Type} [FloatOps F]

/-- A one-entry slice of a four-entry table holds that entry, at its only index. -/
theorem entry_apply {α : Type} (tbl : S4.Idx → α) (n : Nat) (hn : n < 4) (hs : S4.Slices ![n] S1) (j : S1.Idx) :
    extractStridedSlice S1 ![n] tbl hs j = tbl (ix1 (⟨n, hn⟩ : Fin 4)) := by
  refine extractStridedSlice_apply _ _ hs j _ ?_
  intro a
  match a with
  | ⟨0, _⟩ => show n = n + (j 0).val; have : (j 0).val < 1 := (j 0).isLt; omega

/-- An entry of a table, made a scalar and splat over the array, is that entry everywhere. -/
theorem splat_apply (tbl : FVec F S4 .f32) (n : Nat) (hn : n < 4) (hs : S4.Slices ![n] S1) (i : S8x64x128x128.Idx) :
    broadcastInDim S8x64x128x128 ![] bcast_S_S8x64x128x128 (shapeCast S_ (extractStridedSlice S1 ![n] tbl hs) shapeCasts_S1_S_) i
      = tbl (ix1 (⟨n, hn⟩ : Fin 4)) := by
  unfold broadcastInDim shapeCast
  exact entry_apply tbl n hn hs _

theorem splat0_apply (tbl : FVec F S4 .f32) (i : S8x64x128x128.Idx) : splat0 tbl i = tbl (ix1 (⟨0, by decide⟩ : Fin 4)) :=
  splat_apply tbl 0 _ _ i
theorem splat1_apply (tbl : FVec F S4 .f32) (i : S8x64x128x128.Idx) : splat1 tbl i = tbl (ix1 (⟨1, by decide⟩ : Fin 4)) :=
  splat_apply tbl 1 _ _ i
theorem splat2_apply (tbl : FVec F S4 .f32) (i : S8x64x128x128.Idx) : splat2 tbl i = tbl (ix1 (⟨2, by decide⟩ : Fin 4)) :=
  splat_apply tbl 2 _ _ i
theorem splat3_apply (tbl : FVec F S4 .f32) (i : S8x64x128x128.Idx) : splat3 tbl i = tbl (ix1 (⟨3, by decide⟩ : Fin 4)) :=
  splat_apply tbl 3 _ _ i

/-- The four shifted inputs at an index: the input `s` channels further round the cycle. -/
theorem shift2_apply (x : FVec F S8x64x128x128 .f32) (b : Fin 8) (p : Fin 64) (h : Fin 128) (w : Fin 128) :
    shift2 x (ix4 b p h w) = x (ix4 b (rot p 2) h w) := roll4_apply 62 2 rfl x _ _ _ b p h w
theorem shift1_apply (x : FVec F S8x64x128x128 .f32) (b : Fin 8) (p : Fin 64) (h : Fin 128) (w : Fin 128) :
    shift1 x (ix4 b p h w) = x (ix4 b (rot p 1) h w) := roll4_apply 63 1 rfl x _ _ _ b p h w
theorem shift0_apply (x : FVec F S8x64x128x128 .f32) (b : Fin 8) (p : Fin 64) (h : Fin 128) (w : Fin 128) :
    shift0 x (ix4 b p h w) = x (ix4 b p h w) := (roll4_apply 64 0 rfl x _ _ _ b p h w).trans (by rw [rot_zero])
theorem shift63_apply (x : FVec F S8x64x128x128 .f32) (b : Fin 8) (p : Fin 64) (h : Fin 128) (w : Fin 128) :
    shift63 x (ix4 b p h w) = x (ix4 b (rot p 63) h w) := roll4_apply 1 63 rfl x _ _ _ b p h w

/-- A chain at an index is the four-tap filter with the table's entries as coefficients. -/
theorem filtered_apply (tbl : FVec F S4 .f32) (k0 k1 k2 k3 : BitVec 32)
    (h0 : tbl (ix1 (⟨0, by decide⟩ : Fin 4)) = FloatOps.ofBits .f32 k0) (h1 : tbl (ix1 (⟨1, by decide⟩ : Fin 4)) = FloatOps.ofBits .f32 k1)
    (h2 : tbl (ix1 (⟨2, by decide⟩ : Fin 4)) = FloatOps.ofBits .f32 k2) (h3 : tbl (ix1 (⟨3, by decide⟩ : Fin 4)) = FloatOps.ofBits .f32 k3)
    (x : FVec F S8x64x128x128 .f32) (b : Fin 8) (p : Fin 64) (h : Fin 128) (w : Fin 128) :
    filtered tbl x (ix4 b p h w)
      = tap4 k0 k1 k2 k3 (x (ix4 b (rot p 2) h w)) (x (ix4 b (rot p 1) h w)) (x (ix4 b p h w)) (x (ix4 b (rot p 63) h w)) := by
  unfold filtered
  simp only [addf, mulf]
  rw [splat0_apply, splat1_apply, splat2_apply, splat3_apply, shift2_apply, shift1_apply, shift0_apply, shift63_apply, h0, h1, h2, h3]
  rfl

/-- The low-pass table's four entries. -/
theorem low0 : (lowTable (F := F)) (ix1 (⟨0, by decide⟩ : Fin 4)) = FloatOps.ofBits .f32 0xBDBB67AF#32 := rfl
theorem low1 : (lowTable (F := F)) (ix1 (⟨1, by decide⟩ : Fin 4)) = FloatOps.ofBits .f32 0x3E224C29#32 := rfl
theorem low2 : (lowTable (F := F)) (ix1 (⟨2, by decide⟩ : Fin 4)) = FloatOps.ofBits .f32 0x3F176CF6#32 := rfl
theorem low3 : (lowTable (F := F)) (ix1 (⟨3, by decide⟩ : Fin 4)) = FloatOps.ofBits .f32 0x3EAED9EC#32 := rfl
/-- The high-pass table's four entries. -/
theorem high0 : (highTable (F := F)) (ix1 (⟨0, by decide⟩ : Fin 4)) = FloatOps.ofBits .f32 0xBEAED9EC#32 := rfl
theorem high1 : (highTable (F := F)) (ix1 (⟨1, by decide⟩ : Fin 4)) = FloatOps.ofBits .f32 0x3F176CF6#32 := rfl
theorem high2 : (highTable (F := F)) (ix1 (⟨2, by decide⟩ : Fin 4)) = FloatOps.ofBits .f32 0xBE224C29#32 := rfl
theorem high3 : (highTable (F := F)) (ix1 (⟨3, by decide⟩ : Fin 4)) = FloatOps.ofBits .f32 0xBDBB67AF#32 := rfl

/-- THE REFERENCE'S RESULT IS THE TRANSFORM of its argument. -/
theorem result_eq (x : FVec F S8x64x128x128 .f32) : result x = swt x := by
  funext i
  obtain ⟨b, q, h, w, rfl⟩ : ∃ (b : Fin 8) (q : Fin 128) (h : Fin 128) (w : Fin 128), i = ix4 b q h w :=
    ⟨i 0, i 1, i 2, i 3, eq_ix4 i⟩
  rw [swt_ix4]
  by_cases hq : q.val < 64
  · rw [swtAt_low _ (⟨q.val, hq⟩ : Fin 64) q rfl]
    refine (concatenate_pair_apply_left (t := S8x128x128x128) (s₁ := S8x64x128x128) (s₂ := S8x64x128x128) (1 : Fin 4) _ _ _
      (ix4 b q h w) rfl (ix4 b (⟨q.val, hq⟩ : Fin 64) h w : S8x64x128x128.Idx) ?_).trans ?_
    · intro a
      match a with
      | ⟨0, _⟩ => rfl
      | ⟨1, _⟩ => rfl
      | ⟨2, _⟩ => rfl
      | ⟨3, _⟩ => rfl
    · exact filtered_apply lowTable _ _ _ _ low0 low1 low2 low3 x b _ h w
  · have hq' : q.val - 64 < 64 := by have := q.isLt; omega
    rw [swtAt_high _ (⟨q.val - 64, hq'⟩ : Fin 64) q (by show q.val = 64 + (q.val - 64); omega)]
    refine (concatenate_pair_apply_right (t := S8x128x128x128) (s₁ := S8x64x128x128) (s₂ := S8x64x128x128) (1 : Fin 4) _ _ _
      (ix4 b q h w) rfl rfl (ix4 b (⟨q.val - 64, hq'⟩ : Fin 64) h w : S8x64x128x128.Idx) ?_ ?_).trans ?_
    · intro a ha
      match a with
      | ⟨0, _⟩ => rfl
      | ⟨1, _⟩ => exact absurd rfl ha
      | ⟨2, _⟩ => rfl
      | ⟨3, _⟩ => rfl
    · show (q.val - 64) + 64 = q.val; omega
    · exact filtered_apply highTable _ _ _ _ high0 high1 high2 high3 x b _ h w

end Cert.ReferenceIdeal.Straight

end
-- ==== Proof.lean ====
/-
  The kernel and its reference compute the same array, as extended reals: the level-1 stationary wavelet transform
  (Daubechies-2 filters divided by √2, periodic extension) of the input `[8, 64, 128, 128]` along its channel axis,
  approximation coefficients in output channels 0–63 and detail coefficients in output channels 64–127.

  Both programs form, at every output position, the same running sum
      (((0 + k0 · x[c+2]) + k1 · x[c+1]) + k2 · x[c]) + k3 · x[c-1]        (channels taken modulo 64)
  with the same four coefficient words per filter, the same operand order and the same grouping. So the two results
  are one term of the argument (`Cert.Swt.swt`), at any reading of the float operations: the proof uses no law of
  arithmetic, and never opens the precondition. What differs is the arrangement:
  - the kernel works block by block (one batch entry and a band of 64 rows per grid point, all channels), builds each
    shifted copy of its block from two slices along the leading axis, takes its coefficients as scalar constants, and
    writes the two filters' outputs into the two halves of its output block (`Proof/KernelBody.lean`: the two stored
    pieces at an index; `Proof/KernelValue.lean`: the block the body leaves, the block each point writes back, the
    cover of the result array by the sixteen blocks, the run);
  - the reference works on the whole array, builds each shifted copy from two slices along the second axis, reads its
    coefficients out of two four-entry tables, and concatenates the two outputs (`Proof/RefRun.lean`: its @main as a
    straight line of operations and its run; `Proof/RefValue.lean`: its result read at an index).
  `Proof/Swt.lean` defines the transform; `Proof/Roll.lean` reads "two slices laid end to end" as a cyclic shift.
  The three frames: the two kernels' are the generated frame certificates; the reference's is its run with the result
  dropped. The idealization rewrote nothing, so there is nothing to preserve.
-/
import proofs.«162496_j38740605010207_2_alg».proof.Defs
import proofs.«162496_j38740605010207_2_alg».proof.Proof.Gen.Kernel
import proofs.«162496_j38740605010207_2_alg».proof.Proof.Gen.Kernel.Skeleton
import proofs.«162496_j38740605010207_2_alg».proof.Proof.Gen.Kernel.Launch
import proofs.«162496_j38740605010207_2_alg».proof.Proof.Gen.Kernel.Points
import proofs.«162496_j38740605010207_2_alg».proof.Proof.Gen.Kernel.Frame
import proofs.«162496_j38740605010207_2_alg».proof.Proof.Gen.KernelIdeal
import proofs.«162496_j38740605010207_2_alg».proof.Proof.Gen.KernelIdeal.Skeleton
import proofs.«162496_j38740605010207_2_alg».proof.Proof.Gen.KernelIdeal.Launch
import proofs.«162496_j38740605010207_2_alg».proof.Proof.Gen.KernelIdeal.Points
import proofs.«162496_j38740605010207_2_alg».proof.Proof.Gen.KernelIdeal.Frame
import proofs.«162496_j38740605010207_2_alg».proof.Proof.Gen.KernelIdeal.Value
import proofs.«162496_j38740605010207_2_alg».proof.Proof.Gen.ReferenceIdeal
import proofs.«162496_j38740605010207_2_alg».proof.Proof.Gen.Pre_finite_inputs
import proofs.«162496_j38740605010207_2_alg».proof.Proof.KernelValue
import proofs.«162496_j38740605010207_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument alone: its run, the result dropped. -/
theorem frame_reference : Cert.frame_ReferenceIdeal := fun m ρ _ =>
  (θ_run Cert.ReferenceIdeal.defs _ _).mono (fun _ h c => (h c).2) (Cert.ReferenceIdeal.Straight.run (F := Ideal) m ρ)

/-- The idealization rewrote no operation. -/
theorem preserves : Cert.preserves_Kernel_KernelIdeal := trivial

/-- From memories that agree on the argument, the kernel's result array ends at the transform of its argument
    (`Whole.run`), the reference's at its own term of its argument (`Straight.run`), and that term is the transform
    (`Straight.result_eq`). -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Straight.run (F := Ideal) m' ρ')
  rw [hagree c]
  exact Cert.ReferenceIdeal.Straight.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
